-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v19_0)) (v2 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v19_0) = v1 c
          ∧ r.2.mem ((c.tc : Thread Cert.KernelIdeal.nD Cert.KernelIdeal.τ).loc Cert.KernelIdeal.main_v19_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S524288 : Shape := ⟨1, ![524288]⟩
abbrev S512x256 : Shape := ⟨2, ![512, 256]⟩
abbrev S256x256 : Shape := ⟨2, ![256, 256]⟩
abbrev S256 : Shape := ⟨1, ![256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S524288 : S_.BroadcastsInDim S524288 (![] : Fin 0 → Fin S524288.rank)
  reducesTo_S524288_S_d0 : S524288.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16384x512 .f32) (main_arg1 : IVec S524288 32) (main_arg2 : IVec S524288 32) (main_arg3 : FVec F S524288 .f32) (main_arg4 : FVec F S512x256 .f32) (main_arg5 : FVec F S256x256 .f32) (main_arg6 : FVec F S256 .f32) (main_arg7 : FVec F S256x256 .f32) (main_arg8 : FVec F S256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S524288 .f32 := Host.absf main_arg3
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S16384x512 : Shape := ⟨2, ![16384, 512]⟩
abbrev S524288 : Shape := ⟨1, ![524288]⟩
abbrev S512x256 : Shape := ⟨2, ![512, 256]⟩
abbrev S256x256 : Shape := ⟨2, ![256, 256]⟩
abbrev S256 : Shape := ⟨1, ![256]⟩
abbrev S16384x256 : Shape := ⟨2, ![16384, 256]⟩
abbrev S2048x512 : Shape := ⟨2, ![2048, 512]⟩
abbrev S2048x256 : Shape := ⟨2, ![2048, 256]⟩
abbrev S524288x1 : Shape := ⟨2, ![524288, 1]⟩
abbrev S_ : Shape := ⟨0, ![]⟩
abbrev S524288x256 : Shape := ⟨2, ![524288, 256]⟩
abbrev S1x256 : Shape := ⟨2, ![1, 256]⟩
abbrev S16384x16384 : Shape := ⟨2, ![16384, 16384]⟩
abbrev S1024x256 : Shape := ⟨2, ![1024, 256]⟩
abbrev S2048x1024 : Shape := ⟨2, ![2048, 1024]⟩
abbrev S256x1024 : Shape := ⟨2, ![256, 1024]⟩

abbrev nBuf : Space → Nat
  | .hbm => 36
  | .vmem => 21
  | .smem => 0
  | _ => 0

abbrev bufTy : (tb : Table) → Fin (tcTables nBuf tb) → BufTy
  | .hbm, ⟨0, _⟩ => ⟨S16384x512, .f32⟩
  | .hbm, ⟨1, _⟩ => ⟨S524288, .i32⟩
  | .hbm, ⟨2, _⟩ => ⟨S524288, .i32⟩
  | .hbm, ⟨3, _⟩ => ⟨S524288, .f32⟩
  | .hbm, ⟨4, _⟩ => ⟨S512x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S16384x256, .f32⟩
  | .hbm, ⟨10, _⟩ => ⟨S524288x1, .f32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x256, .f32⟩
  | .hbm, ⟨20, _⟩ => ⟨S524288x256, .f32⟩
  | .hbm, ⟨21, _⟩ => ⟨S524288x256, .f32⟩
  | .hbm, ⟨22, _⟩ => ⟨S_, .f32⟩
  | .hbm, ⟨23, _⟩ => ⟨S16384x256, .f32⟩
  | .hbm, ⟨24, _⟩ => ⟨S524288x1, .i32⟩
  | .hbm, ⟨25, _⟩ => ⟨S16384x256, .f32⟩
  | .hbm, ⟨26, _⟩ => ⟨S_, .f32⟩
  | .hbm, ⟨27, _⟩ => ⟨S16384x256, .f32⟩
  | .hbm, ⟨28, _⟩ => ⟨S16384x256, .f32⟩
  | .hbm, ⟨29, _⟩ => ⟨S256x256, .f32⟩
  | .hbm, ⟨30, _⟩ => ⟨S256x256, .f32⟩
  | .hbm, ⟨31, _⟩ => ⟨S1x256, .f32⟩
  | .hbm, ⟨32, _⟩ => ⟨S1x256, .f32⟩
  | .hbm, ⟨33, _⟩ => ⟨S16384x256, .f32⟩
  | .hbm, ⟨34, _⟩ => ⟨S16384x256, .f32⟩
  | .hbm, ⟨35, _⟩ => ⟨S16384x16384, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S1024x256, .f32⟩
  | .local _ .vmem, ⟨18, _⟩ => ⟨S1024x256, .f32⟩
  | .local _ .vmem, ⟨19, _⟩ => ⟨S2048x1024, .f32⟩
  | .local _ .vmem, ⟨20, _⟩ => ⟨S2048x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  transposes_S256x256_S256x256_1_0 : S256x256.Transposes [1, 0] S256x256
  shapeCasts_S256_S1x256 : S256.ShapeCasts S1x256
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S2048x1024_S2048x1024_0_0 : ∀ a, (![0, 0] : Fin 2 → Nat) a + S2048x1024.size a ≤ S2048x1024.size a
  h_S2048x1024 : 0 < S2048x1024.numel
  dot_S2048x512_S512x256_S2048x256_1_0_0_1_n_n_wf : DotDims.WF S2048x512 S512x256 S2048x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S2048x256_S256x256_S2048x256_1_0_0_1_n_n_wf : DotDims.WF S2048x256 S256x256 S2048x256 [1] [0] [0] [1] [] []
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S16384x256.size a
  hwx1_5 : ∀ i : grid1.Coords, EltTy.bits .f32 = 32 ∨ (Rect.block (s := S16384x256) S2048x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S16384x256.size a
  hwx1_6 : ∀ i : grid1.Coords, EltTy.bits .f32 = 32 ∨ (Rect.block (s := S16384x256) S2048x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S16384x256.size a
  hwx2_0 : ∀ i : grid2.Coords, EltTy.bits .f32 = 32 ∨ (Rect.block (s := S16384x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S16384x256.size a
  hwx2_1 : ∀ i : grid2.Coords, EltTy.bits .f32 = 32 ∨ (Rect.block (s := S16384x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S16384x16384.size a
  hwx2_2 : ∀ i : grid2.Coords, EltTy.bits .f32 = 32 ∨ (Rect.block (s := S16384x16384) S2048x1024.size (cc2_transform_2 i) (hinb2_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19_0) S2048x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19_1) S2048x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v19_0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19_1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x512 : Shape := ⟨2, ![16384, 512]⟩
abbrev S524288 : Shape := ⟨1, ![524288]⟩
abbrev S512x256 : Shape := ⟨2, ![512, 256]⟩
abbrev S256x256 : Shape := ⟨2, ![256, 256]⟩
abbrev S256 : Shape := ⟨1, ![256]⟩
abbrev S16384x256 : Shape := ⟨2, ![16384, 256]⟩
abbrev S524288x1 : Shape := ⟨2, ![524288, 1]⟩
abbrev S_ : Shape := ⟨0, ![]⟩
abbrev S524288x256 : Shape := ⟨2, ![524288, 256]⟩
abbrev S1x256 : Shape := ⟨2, ![1, 256]⟩
abbrev S256x16384 : Shape := ⟨2, ![256, 16384]⟩
abbrev S16384x16384 : Shape := ⟨2, ![16384, 16384]⟩

abbrev nBuf : Space → Nat
  | .hbm => 41
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S524288, .i32⟩
  | .hbm, ⟨2, _⟩ => ⟨S524288, .i32⟩
  | .hbm, ⟨3, _⟩ => ⟨S524288, .f32⟩
  | .hbm, ⟨4, _⟩ => ⟨S512x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S16384x256, .f32⟩
  | .hbm, ⟨10, _⟩ => ⟨S524288x1, .f32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x256, .f32⟩
  | .hbm, ⟨20, _⟩ => ⟨S524288x256, .f32⟩
  | .hbm, ⟨21, _⟩ => ⟨S524288x256, .f32⟩
  | .hbm, ⟨22, _⟩ => ⟨S_, .f32⟩
  | .hbm, ⟨23, _⟩ => ⟨S16384x256, .f32⟩
  | .hbm, ⟨24, _⟩ => ⟨S524288x1, .i32⟩
  | .hbm, ⟨25, _⟩ => ⟨S16384x256, .f32⟩
  | .hbm, ⟨26, _⟩ => ⟨S_, .f32⟩
  | .hbm, ⟨27, _⟩ => ⟨S16384x256, .f32⟩
  | .hbm, ⟨28, _⟩ => ⟨S16384x256, .f32⟩
  | .hbm, ⟨29, _⟩ => ⟨S256x256, .f32⟩
  | .hbm, ⟨30, _⟩ => ⟨S16384x256, .f32⟩
  | .hbm, ⟨31, _⟩ => ⟨S1x256, .f32⟩
  | .hbm, ⟨32, _⟩ => ⟨S16384x256, .f32⟩
  | .hbm, ⟨33, _⟩ => ⟨S16384x256, .f32⟩
  | .hbm, ⟨34, _⟩ => ⟨S256x256, .f32⟩
  | .hbm, ⟨35, _⟩ => ⟨S16384x256, .f32⟩
  | .hbm, ⟨36, _⟩ => ⟨S1x256, .f32⟩
  | .hbm, ⟨37, _⟩ => ⟨S16384x256, .f32⟩
  | .hbm, ⟨38, _⟩ => ⟨S16384x256, .f32⟩
  | .hbm, ⟨39, _⟩ => ⟨S256x16384, .f32⟩
  | .hbm, ⟨40, _⟩ => ⟨S16384x16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S16384x256_S256x16384_1_0 : S16384x256.Transposes [1, 0] S256x16384
  dot_S16384x512_S512x256_S16384x256_1_0_0_1_n_n_wf : DotDims.WF S16384x512 S512x256 S16384x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x256_S16384x256_1_0_0_1_n_n_wf : DotDims.WF S16384x256 S256x256 S16384x256 [1] [0] [0] [1] [] []
  dot_S16384x256_S256x16384_S16384x16384_1_0_0_1_n_n_wf : DotDims.WF S16384x256 S256x16384 S16384x16384 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf

class Facts : Prop extends Facts₀ where

variable [Facts]
-- ==== Proof.KernelRun.lean ====
/-
  The kernel program's run with its three result arrays named.

  @main is six segments: the first product's region, three stretches of host operations (the edge aggregation, the
  rectifier, and the transposes and reshapes of the projection weights and biases), the projections' region and the
  outer product's region. The buffer contents at each boundary are a fold from the launch memory; after the last
  segment every unscoped buffer holds the last boundary's contents. Read at the three result buffers this names each
  result array as that fold's value there, and read at the arguments it says they end as launched.
-/
import proofs.«136336_j72756745994508_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the outer product, the node embedding
    and the neighbour embedding at the last boundary's contents of their buffers, and the arguments as launched. -/
theorem run : θ_run defs (onTc (τ := τ) (main (F := F))) ⟨m, fun _ => 0, ρ⟩ (fun r => ∀ c : Dev nD,
      r.2.mem ((c.tc : Thread nD τ).loc main_v20) = V6 m ρ c main_v20
      ∧ r.2.mem ((c.tc : Thread nD τ).loc main_v19_0) = V6 m ρ c main_v19_0
      ∧ r.2.mem ((c.tc : Thread nD τ).loc main_v19_1) = V6 m ρ c main_v19_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v20 (by decide)),
       h c _ (mem_uc main_v19_0 (by decide)),
       h c _ (mem_uc main_v19_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunNamed

end
-- ==== Proof.FirstProduct.lean ====
/-
  The first dense product, `support = x · W` with `x : [16384, 512]` and `W : [512, 256]`.

  The kernel computes it in 8 row blocks of 2048 rows: at grid point `t` it loads rows
  `2048 t … 2048 t + 2047` of `x` and all of `W`, multiplies them into a zero accumulator and writes the
  product to rows `2048 t …` of the result. Over the extended reals the narrowing of the operands is the identity
  and the product into zero is the plain sum `∑ k, x[r, k] · W[k, c]`, which is also what the reference's
  contraction of the whole arrays is at entry `(r, c)`. Hence every block written is the corresponding block of
  that whole-array contraction, the 8 blocks tile the result, and the array the region leaves is the contraction.
-/
import proofs.«136336_j72756745994508_1_alg».proof.Proof.Gen.KernelIdeal.Frame
import proofs.«136336_j72756745994508_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Cert.KernelIdeal Cert.KernelIdeal.Gen Idealize.ShloMosaic Idealize.ShloMosaic.TcCoe Idealize.SL.Sem
open Idealize.ShloMosaic.Pipeline (Dat)
open Idealize.ShloMosaic.ValueIdx

/-! ## The operand indices of the body's product -/

theorem lhs_row (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_contr (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_contr (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_col (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- One entry of the body's product: row `p` of the loaded row block against column `q` of the loaded weight,
    summed over the 512 contracted positions. -/
theorem pay_apply (x0 : Vec Ideal S2048x512 .f32) (x1 : Vec Ideal S512x256 .f32) (p : Fin 2048) (q : Fin 256) :
    k0_pay1 (F := Ideal) x0 x1 (ix2 p q) = ∑ k : Fin 512, x0 (ix2 p k) * x1 (ix2 k q) := by
  unfold k0_pay1
  refine (Ideal.matmul_constant_zero_apply dot_S2048x512_S512x256_S2048x256_1_0_0_1_n_n none _ _ (ix2 p q)).trans ?_
  rw [← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx (ix2 p q) ((ValueIdx.contrEquiv1 dot_S2048x512_S512x256_S2048x256_1_0_0_1_n_n 512 rfl rfl).symm k) = ix2 p k := funext fun a => Fin.ext (by
    match a with
    | ⟨0, _⟩ => exact lhs_row _ _
    | ⟨1, _⟩ => exact (lhs_contr _ _).trans hk)
  have er : dot_S2048x512_S512x256_S2048x256_1_0_0_1_n_n.rhsIdx (ix2 p q) ((ValueIdx.contrEquiv1 dot_S2048x512_S512x256_S2048x256_1_0_0_1_n_n 512 rfl rfl).symm k) = ix2 k q := funext fun a => Fin.ext (by
    match a with
    | ⟨0, _⟩ => exact (rhs_contr _ _).trans hk
    | ⟨1, _⟩ => exact rhs_col _ _)
  rw [el, er]
  rfl

/-- An entry of a block's product is the entry of the whole arrays' contraction at the array index `i` the block
    entry `j` sits at, once the loaded blocks are the arrays read through embeddings `e0`, `e1` that send row `j 0`,
    position `k` to row `i 0`, position `k`, and position `k`, column `j 1` to position `k`, column `i 1`. -/
theorem block_entry (A : FVec Ideal Cert.ReferenceIdeal.S16384x512 .f32) (B : FVec Ideal Cert.ReferenceIdeal.S512x256 .f32)
    (x0 : Vec Ideal S2048x512 .f32) (x1 : Vec Ideal S512x256 .f32)
    (e0 : S2048x512.Idx → Cert.ReferenceIdeal.S16384x512.Idx) (e1 : S512x256.Idx → Cert.ReferenceIdeal.S512x256.Idx)
    (i : Cert.ReferenceIdeal.S16384x256.Idx) (j : S2048x256.Idx)
    (hx0 : ∀ y, x0 y = A (e0 y)) (hx1 : ∀ y, x1 y = B (e1 y))
    (h0 : ∀ k : Fin 512, e0 (ix2 (j 0) k) = Cert.ReferenceIdeal.Read.lidx_main_v0 i k)
    (h1 : ∀ k : Fin 512, e1 (ix2 k (j 1)) = Cert.ReferenceIdeal.Read.ridx_main_v0 i k) :
    k0_pay1 (F := Ideal) x0 x1 j = Cert.ReferenceIdeal.Read.val_main_v0 (F := Ideal) A B i := by
  obtain ⟨p, q, rfl⟩ : ∃ (p : Fin 2048) (q : Fin 256), j = ix2 p q := ⟨j 0, j 1, eq_ix2 j⟩
  rw [pay_apply, Cert.ReferenceIdeal.Read.val_main_v0_apply]
  exact Finset.sum_congr rfl fun k _ => by rw [hx0, hx1, h0 k, h1 k]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 8 grid points: the row block of `x` moves with the output's row block, which is
    the point's number; every other block index is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the whole arrays' contraction. -/
theorem flushed_eq (c : Dev nD) (t : Fin cfg0.N) :
    (dat0 V c).flushed 2 t = ((cfg0.win 2).blk t).view.read (Elt Ideal)
      (Cert.ReferenceIdeal.Read.val_main_v0 (F := Ideal) (V c main_arg0) (V c main_arg4)) := by
  show (cfg0.win 2).cut (grid0.coords t) ((dat0 V c).after 2 t) = _
  rw [after0_2]
  unfold out0_2
  rw [View.canon_unit_zero origin]
  simp only [View.ld_unit_zero (S := S2048x512) origin, View.ld_unit_zero (S := S512x256) origin]
  obtain ⟨e0, e1, e2, e3, e4, e5⟩ := idx_facts t
  funext j
  refine block_entry (V c main_arg0) (V c main_arg4) (iblk0 V c 0 t) (iblk0 V c 1 t)
    (fun y => ((cfg0.win 0).blk t).view.emb y) (fun y => ((cfg0.win 1).blk t).view.emb y)
    (((cfg0.win 2).blk t).view.emb j) j (fun y => rfl) (fun y => rfl) (fun k => ?_) (fun k => ?_)
  · funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 512 + 1 * k.val = k.val; omega
  · funext a; apply Fin.ext
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega

/-- An index of the result is in point `t`'s block iff each coordinate is in the block's range on its axis. -/
theorem mem_blk (t : Fin cfg0.N) (i : S16384x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- Row `r` of the result lies in the block of point `r / 2048`. -/
theorem cover (i : S16384x256.Idx) : ∃ t : Fin cfg0.N, (cfg0.win 2).flush t = true ∧ i ∈ ((cfg0.win 2).blk t).view.set := by
  have hi0 : (i 0).val < 16384 := (i 0).isLt
  have hi1 : (i 1).val < 256 := (i 1).isLt
  let t : Fin cfg0.N := ⟨(i 0).val / 2048, by rw [show cfg0.N = 8 from N_0]; omega⟩
  obtain ⟨e0, e1, e2, e3, e4, e5⟩ := idx_facts t
  have e5' : win0_2.index t (0 : Fin 2) = (i 0).val / 2048 := e5
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The array the region leaves: the contraction of the two arrays it found. -/
theorem final (c : Dev nD) :
    (dat0 V c).arrAt 2 cfg0.N = Cert.ReferenceIdeal.Read.val_main_v0 (F := Ideal) (V c main_arg0) (V c main_arg4) :=
  (dat0 V c).arrAt_eq_of_cover 2 _ (fun t _ => flushed_eq V c t) cover

end Cert.KernelIdeal.FirstProduct

end
-- ==== Proof.Stages.lean ====
/-
  The two later stages of the pipeline as functions of whole arrays, each read at an index.

  * `affine H W b = H · W + b`: a `[16384, 256]` array times a `[256, 256]` matrix, plus a `[1, 256]` bias row added
    to every row. Entry `(r, c)` is `∑ k, H[r, k] · W[k, c] + b[0, c]`.
  * `gram A B = A · Bᵀ`: two `[16384, 256]` arrays contracted over their 256 columns. Entry `(r, s)` is
    `∑ k, A[r, k] · B[s, k]`.

  Both are spelt with the reference program's own operations (its contraction, its broadcast, its transpose), so
  that the reference's result terms are these functions applied to its earlier stages, by unfolding alone. Over the
  extended reals the host contraction is the plain sum over the contracted axis.
-/
import proofs.«136336_j72756745994508_1_alg».proof.Proof.Gen.ReferenceIdeal.Read
import Idealize.ShloMosaic.Lib.Pipeline.Value
import Idealize.ShloMosaic.Lib.ValueIdx
import Idealize.ShloMosaic.PureOps.Ideal.Laws

noncomputable section

namespace Cert.Stages

open Cert.ReferenceIdeal Cert.ReferenceIdeal.Gen Cert.ReferenceIdeal.Read
open Idealize.ShloMosaic Idealize.ShloMosaic.TcCoe Idealize.SL.Sem Idealize.ShloMosaic.StableHlo

/-- `H · W + b`, the bias row added to every row. -/
def affine (H : FVec Ideal S16384x256 .f32) (W : FVec Ideal S256x256 .f32) (b : FVec Ideal S1x256 .f32) :
    FVec Ideal S16384x256 .f32 :=
  addf (Host.dotGeneral (F := Ideal) dot_S16384x256_S256x256_S16384x256_1_0_0_1_n_n none H W)
    (broadcastInDim S16384x256 ![0, 1] bcast_S1x256_S16384x256_0_1 b)

/-- Entry `(r, c)` of `H · W + b`. -/
theorem affine_apply (H : FVec Ideal S16384x256 .f32) (W : FVec Ideal S256x256 .f32) (b : FVec Ideal S1x256 .f32)
    (i : S16384x256.Idx) :
    affine H W b i = (∑ k : Fin 256, H (lidx_main_v16 i k) * W (ridx_main_v16 i k)) + b (idx_main_v18 i) := by
  unfold affine
  refine (ValueIdx.addf_apply _ _ i).trans ?_
  refine congrArg₂ (· + ·) ?_ ?_
  · simp only [Host.dotGeneral]
    rw [Ideal.dotGeneral_apply, ← Equiv.sum_comp (ValueIdx.contrEquiv1 dot_S16384x256_S256x256_S16384x256_1_0_0_1_n_n 256 rfl rfl).symm]
    refine Finset.sum_congr rfl fun k _ => ?_
    have hk := ValueIdx.contrEquiv1_symm_val dot_S16384x256_S256x256_S16384x256_1_0_0_1_n_n 256 rfl rfl k
    have el : dot_S16384x256_S256x256_S16384x256_1_0_0_1_n_n.lhsIdx i ((ValueIdx.contrEquiv1 dot_S16384x256_S256x256_S16384x256_1_0_0_1_n_n 256 rfl rfl).symm k) = lidx_main_v16 i k := funext fun a => Fin.ext (by
      match a with
      | ⟨0, _⟩ => exact lhs_main_v16_0 _ _
      | ⟨1, _⟩ => exact (lhs_main_v16_1 _ _).trans hk)
    have er : dot_S16384x256_S256x256_S16384x256_1_0_0_1_n_n.rhsIdx i ((ValueIdx.contrEquiv1 dot_S16384x256_S256x256_S16384x256_1_0_0_1_n_n 256 rfl rfl).symm k) = ridx_main_v16 i k := funext fun a => Fin.ext (by
      match a with
      | ⟨0, _⟩ => exact (rhs_main_v16_0 _ _).trans hk
      | ⟨1, _⟩ => exact rhs_main_v16_1 _ _)
    rw [el, er]
  · exact broadcastInDim_apply _ bcast_S1x256_S16384x256_0_1 b i (idx_main_v18 i) (fun a => match a with
      | ⟨0, _⟩ => by show 0 = if (1 : Nat) = 1 then 0 else (i 0).val; rw [if_pos rfl]
      | ⟨1, _⟩ => by show (i 1).val = if (256 : Nat) = 1 then 0 else (i 1).val; rw [if_neg (by decide)])

/-- `A · Bᵀ`. -/
def gram (A B : FVec Ideal S16384x256 .f32) : FVec Ideal S16384x16384 .f32 :=
  Host.dotGeneral (F := Ideal) dot_S16384x256_S256x16384_S16384x16384_1_0_0_1_n_n none A
    (transpose S256x16384 [1, 0] B transposes_S16384x256_S256x16384_1_0)

/-- Entry `(r, s)` of `A · Bᵀ`. -/
theorem gram_apply (A B : FVec Ideal S16384x256 .f32) (i : S16384x16384.Idx) :
    gram A B i = ∑ k : Fin 256, A (lidx_main_v26 i k) * B (idx_main_v25 (ridx_main_v26 i k)) := by
  unfold gram
  simp only [Host.dotGeneral]
  rw [Ideal.dotGeneral_apply, ← Equiv.sum_comp (ValueIdx.contrEquiv1 dot_S16384x256_S256x16384_S16384x16384_1_0_0_1_n_n 256 rfl rfl).symm]
  refine Finset.sum_congr rfl fun k _ => ?_
  have hk := ValueIdx.contrEquiv1_symm_val dot_S16384x256_S256x16384_S16384x16384_1_0_0_1_n_n 256 rfl rfl k
  have el : dot_S16384x256_S256x16384_S16384x16384_1_0_0_1_n_n.lhsIdx i ((ValueIdx.contrEquiv1 dot_S16384x256_S256x16384_S16384x16384_1_0_0_1_n_n 256 rfl rfl).symm k) = lidx_main_v26 i k := funext fun a => Fin.ext (by
    match a with
    | ⟨0, _⟩ => exact lhs_main_v26_0 _ _
    | ⟨1, _⟩ => exact (lhs_main_v26_1 _ _).trans hk)
  have er : dot_S16384x256_S256x16384_S16384x16384_1_0_0_1_n_n.rhsIdx i ((ValueIdx.contrEquiv1 dot_S16384x256_S256x16384_S16384x16384_1_0_0_1_n_n 256 rfl rfl).symm k) = ridx_main_v26 i k := funext fun a => Fin.ext (by
    match a with
    | ⟨0, _⟩ => exact (rhs_main_v26_0 _ _).trans hk
    | ⟨1, _⟩ => exact rhs_main_v26_1 _ _)
  rw [el, er]
  refine congrArg (A (lidx_main_v26 i k) * ·) ?_
  exact transpose_apply [1, 0] B transposes_S16384x256_S256x16384_1_0 (ridx_main_v26 i k) (idx_main_v25 (ridx_main_v26 i k)) (fun b => match b with
    | ⟨0, _⟩ => rfl
    | ⟨1, _⟩ => rfl)

end Cert.Stages

end
-- ==== Proof.Projections.lean ====
/-
  The two linear projections, `node = H · Wₙ + bₙ` and `neigh = H · W_g + b_g`, with `H : [16384, 256]`, the weights
  `[256, 256]` (already transposed by the host) and the biases as `[1, 256]` rows.

  The kernel computes both in one pass over 8 row blocks of 2048 rows: at grid point `t` it loads rows `2048 t …` of
  `H`, both weights and both bias rows whole, and writes `block · W + bias row` to rows `2048 t …` of each result.
  Over the extended reals the product into a zero accumulator is the plain sum over the 256 contracted positions and
  the broadcast bias row adds `b[0, c]` in column `c`; this is entry `(r, c)` of `H · W + b` on the whole arrays. So
  every block written is the corresponding block of that function, the 8 blocks tile each result, and the two arrays
  the region leaves are `H · Wₙ + bₙ` and `H · W_g + b_g`.
-/
import proofs.«136336_j72756745994508_1_alg».proof.Proof.Gen.KernelIdeal.Frame
import proofs.«136336_j72756745994508_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Projections

open Cert.KernelIdeal Cert.KernelIdeal.Gen Idealize.ShloMosaic Idealize.ShloMosaic.TcCoe Idealize.SL.Sem
open Idealize.ShloMosaic.Pipeline (Dat)
open Idealize.ShloMosaic.ValueIdx

/-! ## The operand indices of the body's products -/

theorem lhs_row (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_contr (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_contr (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_col (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- One entry of a `[2048, 256] × [256, 256]` product into the zero accumulator: the sum over the 256 contracted
    positions. -/
theorem product_apply (v : FVec Ideal S2048x256 .bf16) (w : FVec Ideal S256x256 .bf16) (p : Fin 2048) (q : Fin 256) :
    matmul dot_S2048x256_S256x256_S2048x256_1_0_0_1_n_n none v w (constant S2048x256 .f32 0x00000000#32) (ix2 p q) = ∑ k : Fin 256, v (ix2 p k) * w (ix2 k q) := by
  refine (Ideal.matmul_constant_zero_apply dot_S2048x256_S256x256_S2048x256_1_0_0_1_n_n none v w (ix2 p q)).trans ?_
  rw [← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p q) ((ValueIdx.contrEquiv1 dot_S2048x256_S256x256_S2048x256_1_0_0_1_n_n 256 rfl rfl).symm k) = ix2 p k := funext fun a => Fin.ext (by
    match a with
    | ⟨0, _⟩ => exact lhs_row _ _
    | ⟨1, _⟩ => exact (lhs_contr _ _).trans hk)
  have er : dot_S2048x256_S256x256_S2048x256_1_0_0_1_n_n.rhsIdx (ix2 p q) ((ValueIdx.contrEquiv1 dot_S2048x256_S256x256_S2048x256_1_0_0_1_n_n 256 rfl rfl).symm k) = ix2 k q := funext fun a => Fin.ext (by
    match a with
    | ⟨0, _⟩ => exact (rhs_contr _ _).trans hk
    | ⟨1, _⟩ => exact rhs_col _ _)
  rw [el, er]

/-- One entry of the node projection's block: the product's sum plus the bias row's entry in that column. -/
theorem pay_apply (x0 : Vec Ideal S2048x256 .f32) (x1 : Vec Ideal S256x256 .f32) (x2 : Vec Ideal S1x256 .f32)
    (p : Fin 2048) (q : Fin 256) :
    k1_pay2 (F := Ideal) x0 x1 x2 (ix2 p q) = (∑ k : Fin 256, x0 (ix2 p k) * x1 (ix2 k q)) + x2 (ix2 (0 : Fin 1) q) := by
  unfold k1_pay2 k1_pay1
  simp only [shapeCast_self]
  refine (ValueIdx.addf_apply _ _ (ix2 p q)).trans ?_
  refine congrArg₂ (· + ·) ?_ ?_
  · exact (product_apply _ _ p q).trans (Finset.sum_congr rfl fun k _ => rfl)
  · exact broadcastTo_1b_ab_apply _ _ p q

/-- The neighbour projection's block is the same function of its own weight and bias. -/
theorem pay_neigh (x0 : Vec Ideal S2048x256 .f32) (x3 : Vec Ideal S256x256 .f32) (x4 : Vec Ideal S1x256 .f32) :
    k1_pay3 (F := Ideal) x0 x3 x4 = k1_pay2 (F := Ideal) x0 x3 x4 := rfl

/-- An entry of a block's `block · W + bias row` is the entry of `H · W + b` at the array index `i` the block entry `j`
    sits at, once the loaded blocks are the arrays read through embeddings that send row `j 0`, position `k` to row
    `i 0`, position `k`; position `k`, column `j 1` to position `k`, column `i 1`; and the bias row's column `j 1` to
    column `i 1`. -/
theorem block_entry (H : FVec Ideal Cert.ReferenceIdeal.S16384x256 .f32) (W : FVec Ideal Cert.ReferenceIdeal.S256x256 .f32)
    (b : FVec Ideal Cert.ReferenceIdeal.S1x256 .f32)
    (x0 : Vec Ideal S2048x256 .f32) (x1 : Vec Ideal S256x256 .f32) (x2 : Vec Ideal S1x256 .f32)
    (e0 : S2048x256.Idx → Cert.ReferenceIdeal.S16384x256.Idx) (e1 : S256x256.Idx → Cert.ReferenceIdeal.S256x256.Idx)
    (e2 : S1x256.Idx → Cert.ReferenceIdeal.S1x256.Idx)
    (i : Cert.ReferenceIdeal.S16384x256.Idx) (j : S2048x256.Idx)
    (hx0 : ∀ y, x0 y = H (e0 y)) (hx1 : ∀ y, x1 y = W (e1 y)) (hx2 : ∀ y, x2 y = b (e2 y))
    (h0 : ∀ k : Fin 256, e0 (ix2 (j 0) k) = Cert.ReferenceIdeal.Read.lidx_main_v16 i k)
    (h1 : ∀ k : Fin 256, e1 (ix2 k (j 1)) = Cert.ReferenceIdeal.Read.ridx_main_v16 i k)
    (h2 : e2 (ix2 (0 : Fin 1) (j 1)) = Cert.ReferenceIdeal.Read.idx_main_v18 i) :
    k1_pay2 (F := Ideal) x0 x1 x2 j = Cert.Stages.affine H W b i := by
  obtain ⟨p, q, rfl⟩ : ∃ (p : Fin 2048) (q : Fin 256), j = ix2 p q := ⟨j 0, j 1, eq_ix2 j⟩
  rw [pay_apply, Cert.Stages.affine_apply, hx2, h2]
  exact congrArg (· + b (Cert.ReferenceIdeal.Read.idx_main_v18 i)) (Finset.sum_congr rfl fun k _ => by rw [hx0, hx1, h0 k, h1 k])

/-! ## From the blocks to the arrays -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 8 grid points: the row block of `H` moves with both outputs' row block, which is
    the point's number; every other block index is 0. -/
theorem idx_facts : ∀ t : Fin cfg1.N, win1_0.index t (0 : Fin 2) = t.val
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- What point `t` writes back to the node embedding is block `t` of `H · Wₙ + bₙ`. -/
theorem flushed_node (c : Dev nD) (t : Fin cfg1.N) :
    (dat1 V c).flushed 5 t = ((cfg1.win 5).blk t).view.read (Elt Ideal)
      (Cert.Stages.affine (V c main_v14) (V c main_v15) (V c main_v17)) := by
  show (cfg1.win 5).cut (grid1.coords t) ((dat1 V c).after 5 t) = _
  rw [after1_5]
  unfold out1_5
  rw [View.canon_unit_zero origin]
  simp only [View.ld_unit_zero (S := S2048x256) origin, View.ld_unit_zero (S := S256x256) origin, View.ld_unit_zero (S := S1x256) origin]
  obtain ⟨a0, a1, b0, b1, c0, c1, d0, d1, f0, f1, g0, g1, h0, h1⟩ := idx_facts t
  funext j
  refine block_entry (V c main_v14) (V c main_v15) (V c main_v17) (iblk1 V c 0 t) (iblk1 V c 1 t) (iblk1 V c 2 t)
    (fun y => ((cfg1.win 0).blk t).view.emb y) (fun y => ((cfg1.win 1).blk t).view.emb y) (fun y => ((cfg1.win 2).blk t).view.emb y)
    (((cfg1.win 5).blk t).view.emb j) j (fun y => rfl) (fun y => rfl) (fun y => rfl) (fun k => ?_) (fun k => ?_) ?_
  · funext a; apply Fin.ext
    match a with
    | ⟨0, _⟩ => show win1_0.index t (0 : Fin 2) * 2048 + 1 * (j 0).val = win1_5.index t (0 : Fin 2) * 2048 + 1 * (j 0).val; omega
    | ⟨1, _⟩ => show win1_0.index t (1 : Fin 2) * 256 + 1 * k.val = k.val; omega
  · funext a; apply Fin.ext
    match a with
    | ⟨0, _⟩ => show win1_1.index t (0 : Fin 2) * 256 + 1 * k.val = k.val; omega
    | ⟨1, _⟩ => show win1_1.index t (1 : Fin 2) * 256 + 1 * (j 1).val = win1_5.index t (1 : Fin 2) * 256 + 1 * (j 1).val; omega
  · funext a; apply Fin.ext
    match a with
    | ⟨0, _⟩ => show win1_2.index t (0 : Fin 2) * 1 + 1 * 0 = 0; omega
    | ⟨1, _⟩ => show win1_2.index t (1 : Fin 2) * 256 + 1 * (j 1).val = win1_5.index t (1 : Fin 2) * 256 + 1 * (j 1).val; omega

/-- What point `t` writes back to the neighbour embedding is block `t` of `H · W_g + b_g`. -/
theorem flushed_neigh (c : Dev nD) (t : Fin cfg1.N) :
    (dat1 V c).flushed 6 t = ((cfg1.win 6).blk t).view.read (Elt Ideal)
      (Cert.Stages.affine (V c main_v14) (V c main_v16) (V c main_v18)) := by
  show (cfg1.win 6).cut (grid1.coords t) ((dat1 V c).after 6 t) = _
  rw [after1_6]
  unfold out1_6
  rw [View.canon_unit_zero origin]
  simp only [View.ld_unit_zero (S := S2048x256) origin, View.ld_unit_zero (S := S256x256) origin, View.ld_unit_zero (S := S1x256) origin]
  rw [pay_neigh]
  obtain ⟨a0, a1, b0, b1, c0, c1, d0, d1, f0, f1, g0, g1, h0, h1⟩ := idx_facts t
  funext j
  refine block_entry (V c main_v14) (V c main_v16) (V c main_v18) (iblk1 V c 0 t) (iblk1 V c 3 t) (iblk1 V c 4 t)
    (fun y => ((cfg1.win 0).blk t).view.emb y) (fun y => ((cfg1.win 3).blk t).view.emb y) (fun y => ((cfg1.win 4).blk t).view.emb y)
    (((cfg1.win 6).blk t).view.emb j) j (fun y => rfl) (fun y => rfl) (fun y => rfl) (fun k => ?_) (fun k => ?_) ?_
  · funext a; apply Fin.ext
    match a with
    | ⟨0, _⟩ => show win1_0.index t (0 : Fin 2) * 2048 + 1 * (j 0).val = win1_6.index t (0 : Fin 2) * 2048 + 1 * (j 0).val; omega
    | ⟨1, _⟩ => show win1_0.index t (1 : Fin 2) * 256 + 1 * k.val = k.val; omega
  · funext a; apply Fin.ext
    match a with
    | ⟨0, _⟩ => show win1_3.index t (0 : Fin 2) * 256 + 1 * k.val = k.val; omega
    | ⟨1, _⟩ => show win1_3.index t (1 : Fin 2) * 256 + 1 * (j 1).val = win1_6.index t (1 : Fin 2) * 256 + 1 * (j 1).val; omega
  · funext a; apply Fin.ext
    match a with
    | ⟨0, _⟩ => show win1_4.index t (0 : Fin 2) * 1 + 1 * 0 = 0; omega
    | ⟨1, _⟩ => show win1_4.index t (1 : Fin 2) * 256 + 1 * (j 1).val = win1_6.index t (1 : Fin 2) * 256 + 1 * (j 1).val; omega

/-- An index of the node embedding is in point `t`'s block iff each coordinate is in the block's range. -/
theorem mem_blk_node (t : Fin cfg1.N) (i : S16384x256.Idx) :
    i ∈ ((cfg1.win 5).blk t).view.set ↔ ∀ a : Fin 2, win1_5.index t a * S2048x256.size a ≤ (i a).val ∧ (i a).val < win1_5.index t a * S2048x256.size a + S2048x256.size a := by
  show i ∈ ((View.whole main_v19_0).slice (win1_5.rect t)).set ↔ _
  rw [View.set_slice_whole, Rect.mem_set_unit]
  exact Iff.rfl

/-- The same for the neighbour embedding. -/
theorem mem_blk_neigh (t : Fin cfg1.N) (i : S16384x256.Idx) :
    i ∈ ((cfg1.win 6).blk t).view.set ↔ ∀ a : Fin 2, win1_6.index t a * S2048x256.size a ≤ (i a).val ∧ (i a).val < win1_6.index t a * S2048x256.size a + S2048x256.size a := by
  show i ∈ ((View.whole main_v19_1).slice (win1_6.rect t)).set ↔ _
  rw [View.set_slice_whole, Rect.mem_set_unit]
  exact Iff.rfl

/-- Row `r` of the node embedding lies in the block of point `r / 2048`. -/
theorem cover_node (i : S16384x256.Idx) : ∃ t : Fin cfg1.N, (cfg1.win 5).flush t = true ∧ i ∈ ((cfg1.win 5).blk t).view.set := by
  have hi0 : (i 0).val < 16384 := (i 0).isLt
  have hi1 : (i 1).val < 256 := (i 1).isLt
  let t : Fin cfg1.N := ⟨(i 0).val / 2048, by rw [show cfg1.N = 8 from N_1]; omega⟩
  obtain ⟨a0, a1, b0, b1, c0, c1, d0, d1, f0, f1, g0, g1, h0, h1⟩ := idx_facts t
  have g0' : win1_5.index t (0 : Fin 2) = (i 0).val / 2048 := g0
  refine ⟨t, flush1_5 t, ?_⟩
  rw [mem_blk_node]
  intro a
  match a with
  | ⟨0, _⟩ => show win1_5.index t (0 : Fin 2) * 2048 ≤ (i 0).val ∧ (i 0).val < win1_5.index t (0 : Fin 2) * 2048 + 2048; omega
  | ⟨1, _⟩ => show win1_5.index t (1 : Fin 2) * 256 ≤ (i 1).val ∧ (i 1).val < win1_5.index t (1 : Fin 2) * 256 + 256; omega

/-- Row `r` of the neighbour embedding lies in the block of point `r / 2048`. -/
theorem cover_neigh (i : S16384x256.Idx) : ∃ t : Fin cfg1.N, (cfg1.win 6).flush t = true ∧ i ∈ ((cfg1.win 6).blk t).view.set := by
  have hi0 : (i 0).val < 16384 := (i 0).isLt
  have hi1 : (i 1).val < 256 := (i 1).isLt
  let t : Fin cfg1.N := ⟨(i 0).val / 2048, by rw [show cfg1.N = 8 from N_1]; omega⟩
  obtain ⟨a0, a1, b0, b1, c0, c1, d0, d1, f0, f1, g0, g1, h0, h1⟩ := idx_facts t
  have h0' : win1_6.index t (0 : Fin 2) = (i 0).val / 2048 := h0
  refine ⟨t, flush1_6 t, ?_⟩
  rw [mem_blk_neigh]
  intro a
  match a with
  | ⟨0, _⟩ => show win1_6.index t (0 : Fin 2) * 2048 ≤ (i 0).val ∧ (i 0).val < win1_6.index t (0 : Fin 2) * 2048 + 2048; omega
  | ⟨1, _⟩ => show win1_6.index t (1 : Fin 2) * 256 ≤ (i 1).val ∧ (i 1).val < win1_6.index t (1 : Fin 2) * 256 + 256; omega

/-- The node embedding the region leaves: `H · Wₙ + bₙ` of the arrays it found. -/
theorem final_node (c : Dev nD) :
    (dat1 V c).arrAt 5 cfg1.N = Cert.Stages.affine (V c main_v14) (V c main_v15) (V c main_v17) :=
  (dat1 V c).arrAt_eq_of_cover 5 _ (fun t _ => flushed_node V c t) cover_node

/-- The neighbour embedding the region leaves: `H · W_g + b_g` of the arrays it found. -/
theorem final_neigh (c : Dev nD) :
    (dat1 V c).arrAt 6 cfg1.N = Cert.Stages.affine (V c main_v14) (V c main_v16) (V c main_v18) :=
  (dat1 V c).arrAt_eq_of_cover 6 _ (fun t _ => flushed_neigh V c t) cover_neigh

end Cert.KernelIdeal.Projections

end
-- ==== Proof.OuterProduct.lean ====
/-
  The outer product `adj = node · neighᵀ`, with `node, neigh : [16384, 256]` and `adj : [16384, 16384]`.

  The kernel tiles the result into 8 × 16 blocks of 2048 × 1024: at grid point `(a, b)` it loads rows `2048 a …` of
  `node` and rows `1024 b …` of `neigh`, transposes the second block and multiplies into a zero accumulator, and
  writes the product to the block at rows `2048 a …`, columns `1024 b …`. Over the extended reals an entry of the
  block product is `∑ k, node[r, k] · neigh[s, k]`, which is entry `(r, s)` of `node · neighᵀ` on the whole arrays.
  So every block written is the corresponding block of that function, the 128 blocks tile the result, and the array
  the region leaves is `node · neighᵀ`.
-/
import proofs.«136336_j72756745994508_1_alg».proof.Proof.Gen.KernelIdeal.Frame
import proofs.«136336_j72756745994508_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.OuterProduct

open Cert.KernelIdeal Cert.KernelIdeal.Gen Idealize.ShloMosaic Idealize.ShloMosaic.TcCoe Idealize.SL.Sem
open Idealize.ShloMosaic.Pipeline (Dat)
open Idealize.ShloMosaic.ValueIdx

/-! ## The operand indices of the body's product -/

theorem lhs_row (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem lhs_contr (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
theorem rhs_contr (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
theorem rhs_col (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- One entry of a `[2048, 256] × [256, 1024]` product into the zero accumulator: the sum over the 256 contracted
    positions. -/
theorem product_apply (v : FVec Ideal S2048x256 .bf16) (w : FVec Ideal S256x1024 .bf16) (p : Fin 2048) (q : Fin 1024) :
    matmul dot_S2048x256_S256x1024_S2048x1024_1_0_0_1_n_n none v w (constant S2048x1024 .f32 0x00000000#32) (ix2 p q) = ∑ k : Fin 256, v (ix2 p k) * w (ix2 k q) := by
  refine (Ideal.matmul_constant_zero_apply dot_S2048x256_S256x1024_S2048x1024_1_0_0_1_n_n none v w (ix2 p q)).trans ?_
  rw [← Equiv.sum_comp (ValueIdx.contrEquiv1 dot_S2048x256_S256x1024_S2048x1024_1_0_0_1_n_n 256 rfl rfl).symm]
  refine Finset.sum_congr rfl fun k _ => ?_
  have hk := ValueIdx.contrEquiv1_symm_val dot_S2048x256_S256x1024_S2048x1024_1_0_0_1_n_n 256 rfl rfl k
  have el : dot_S2048x256_S256x1024_S2048x1024_1_0_0_1_n_n.lhsIdx (ix2 p q) ((ValueIdx.contrEquiv1 dot_S2048x256_S256x1024_S2048x1024_1_0_0_1_n_n 256 rfl rfl).symm k) = ix2 p k := funext fun a => Fin.ext (by
    match a with
    | ⟨0, _⟩ => exact lhs_row _ _
    | ⟨1, _⟩ => exact (lhs_contr _ _).trans hk)
  have er : dot_S2048x256_S256x1024_S2048x1024_1_0_0_1_n_n.rhsIdx (ix2 p q) ((ValueIdx.contrEquiv1 dot_S2048x256_S256x1024_S2048x1024_1_0_0_1_n_n 256 rfl rfl).symm k) = ix2 k q := funext fun a => Fin.ext (by
    match a with
    | ⟨0, _⟩ => exact (rhs_contr _ _).trans hk
    | ⟨1, _⟩ => exact rhs_col _ _)
  rw [el, er]

/-- One entry of the body's block: row `p` of the first block against row `q` of the second. -/
theorem pay_apply (x0 : Vec Ideal S2048x256 .f32) (x1 : Vec Ideal S1024x256 .f32) (p : Fin 2048) (q : Fin 1024) :
    k2_pay1 (F := Ideal) x0 x1 (ix2 p q) = ∑ k : Fin 256, x0 (ix2 p k) * x1 (ix2 q k) := by
  unfold k2_pay1
  simp only [shapeCast_self]
  refine (product_apply _ _ p q).trans (Finset.sum_congr rfl fun k _ => ?_)
  refine congrArg (x0 (ix2 p k) * ·) ?_
  exact transpose_ix2_apply (a := 1024) (b := 256) _ transposes_S1024x256_p1_0_S256x1024 k q

/-- An entry of a block's product is the entry of `A · Bᵀ` at the array index `i` the block entry `j` sits at, once
    the loaded blocks are the arrays read through embeddings that send row `j 0`, position `k` of the first block to
    row `i 0`, position `k` of `A`, and row `j 1`, position `k` of the second block to row `i 1`, position `k` of `B`. -/
theorem block_entry (A B : FVec Ideal Cert.ReferenceIdeal.S16384x256 .f32)
    (x0 : Vec Ideal S2048x256 .f32) (x1 : Vec Ideal S1024x256 .f32)
    (e0 : S2048x256.Idx → Cert.ReferenceIdeal.S16384x256.Idx) (e1 : S1024x256.Idx → Cert.ReferenceIdeal.S16384x256.Idx)
    (i : Cert.ReferenceIdeal.S16384x16384.Idx) (j : S2048x1024.Idx)
    (hx0 : ∀ y, x0 y = A (e0 y)) (hx1 : ∀ y, x1 y = B (e1 y))
    (h0 : ∀ k : Fin 256, e0 (ix2 (j 0) k) = Cert.ReferenceIdeal.Read.lidx_main_v26 i k)
    (h1 : ∀ k : Fin 256, e1 (ix2 (j 1) k) = Cert.ReferenceIdeal.Read.idx_main_v25 (Cert.ReferenceIdeal.Read.ridx_main_v26 i k)) :
    k2_pay1 (F := Ideal) x0 x1 j = Cert.Stages.gram A B i := by
  obtain ⟨p, q, rfl⟩ : ∃ (p : Fin 2048) (q : Fin 1024), j = ix2 p q := ⟨j 0, j 1, eq_ix2 j⟩
  rw [pay_apply, Cert.Stages.gram_apply]
  exact Finset.sum_congr rfl fun k _ => by rw [hx0, hx1, h0 k, h1 k]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 128 grid points, point `t` being `(t / 16, t % 16)`: the first operand's row
    block and the output's row block are `t / 16`, the second operand's row block and the output's column block are
    `t % 16`, the operands' column block index is 0. -/
theorem idx_facts : ∀ t : Fin cfg2.N, win2_0.index t (0 : Fin 2) = t.val / 16
    ∧ win2_0.index t (1 : Fin 2) = 0
    ∧ win2_1.index t (0 : Fin 2) = t.val % 16
    ∧ win2_1.index t (1 : Fin 2) = 0
    ∧ win2_2.index t (0 : Fin 2) = t.val / 16
    ∧ win2_2.index t (1 : Fin 2) = t.val % 16 :=
  (by decide +kernel : ∀ t : Fin grid2.N, _)

/-- What point `t` writes back is block `t` of `node · neighᵀ`. -/
theorem flushed_eq (c : Dev nD) (t : Fin cfg2.N) :
    (dat2 V c).flushed 2 t = ((cfg2.win 2).blk t).view.read (Elt Ideal)
      (Cert.Stages.gram (V c main_v19_0) (V c main_v19_1)) := by
  show (cfg2.win 2).cut (grid2.coords t) ((dat2 V c).after 2 t) = _
  rw [after2_2]
  unfold out2_2
  rw [View.canon_unit_zero origin]
  simp only [View.ld_unit_zero (S := S2048x256) origin, View.ld_unit_zero (S := S1024x256) origin]
  obtain ⟨e0, e1, e2, e3, e4, e5⟩ := idx_facts t
  funext j
  refine block_entry (V c main_v19_0) (V c main_v19_1) (iblk2 V c 0 t) (iblk2 V c 1 t)
    (fun y => ((cfg2.win 0).blk t).view.emb y) (fun y => ((cfg2.win 1).blk t).view.emb y)
    (((cfg2.win 2).blk t).view.emb j) j (fun y => rfl) (fun y => rfl) (fun k => ?_) (fun k => ?_)
  · funext a; apply Fin.ext
    match a with
    | ⟨0, _⟩ => show win2_0.index t (0 : Fin 2) * 2048 + 1 * (j 0).val = win2_2.index t (0 : Fin 2) * 2048 + 1 * (j 0).val; omega
    | ⟨1, _⟩ => show win2_0.index t (1 : Fin 2) * 256 + 1 * k.val = k.val; omega
  · funext a; apply Fin.ext
    match a with
    | ⟨0, _⟩ => show win2_1.index t (0 : Fin 2) * 1024 + 1 * (j 1).val = win2_2.index t (1 : Fin 2) * 1024 + 1 * (j 1).val; omega
    | ⟨1, _⟩ => show win2_1.index t (1 : Fin 2) * 256 + 1 * k.val = k.val; omega

/-- An index of the result is in point `t`'s block iff each coordinate is in the block's range on its axis. -/
theorem mem_blk (t : Fin cfg2.N) (i : S16384x16384.Idx) :
    i ∈ ((cfg2.win 2).blk t).view.set ↔ ∀ a : Fin 2, win2_2.index t a * S2048x1024.size a ≤ (i a).val ∧ (i a).val < win2_2.index t a * S2048x1024.size a + S2048x1024.size a := by
  show i ∈ ((View.whole main_v20).slice (win2_2.rect t)).set ↔ _
  rw [View.set_slice_whole, Rect.mem_set_unit]
  exact Iff.rfl

/-- Entry `(r, s)` of the result lies in the block of point `16 (r / 2048) + s / 1024`. -/
theorem cover (i : S16384x16384.Idx) : ∃ t : Fin cfg2.N, (cfg2.win 2).flush t = true ∧ i ∈ ((cfg2.win 2).blk t).view.set := by
  have hi0 : (i 0).val < 16384 := (i 0).isLt
  have hi1 : (i 1).val < 16384 := (i 1).isLt
  let t : Fin cfg2.N := ⟨(i 0).val / 2048 * 16 + (i 1).val / 1024, by rw [show cfg2.N = 128 from N_2]; omega⟩
  obtain ⟨e0, e1, e2, e3, e4, e5⟩ := idx_facts t
  have e4' : win2_2.index t (0 : Fin 2) = ((i 0).val / 2048 * 16 + (i 1).val / 1024) / 16 := e4
  have e5' : win2_2.index t (1 : Fin 2) = ((i 0).val / 2048 * 16 + (i 1).val / 1024) % 16 := e5
  refine ⟨t, flush2_2 t, ?_⟩
  rw [mem_blk]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 1024 ≤ (i 1).val ∧ (i 1).val < win2_2.index t (1 : Fin 2) * 1024 + 1024; omega

/-- The array the region leaves: `node · neighᵀ` of the two arrays it found. -/
theorem final (c : Dev nD) :
    (dat2 V c).arrAt 2 cfg2.N = Cert.Stages.gram (V c main_v19_0) (V c main_v19_1) :=
  (dat2 V c).arrAt_eq_of_cover 2 _ (fun t _ => flushed_eq V c t) cover

end Cert.KernelIdeal.OuterProduct

end
-- ==== Proof.Aggregation.lean ====
/-
  The edge aggregation and the rectifier, as one function of the support array and the edge data.

  `hidden S row col w` is the host's chain of operations between the first product and the projections: the column
  endpoints are shifted by 16384 where negative, the host gather takes one row of `S` per edge at those endpoints, each
  gathered row is scaled by its edge's weight, the host scatter-add adds the scaled rows into the zero array at the
  row endpoints, and the result is clamped below at zero. Both programs apply exactly these operations, to their own
  support array and the same edge data, so the function is carried whole: nothing here reads the gather or the
  scatter-add at an index, and whatever they do with an endpoint outside `0 … 16383` they do alike in both programs.
-/
import proofs.«136336_j72756745994508_1_alg».proof.Proof.Gen.ReferenceIdeal

noncomputable section

namespace Cert.Stages

open Cert.ReferenceIdeal Cert.ReferenceIdeal.Gen
open Idealize.ShloMosaic Idealize.ShloMosaic.TcCoe Idealize.SL.Sem

variable {F : FTy → Type} [FloatOps F]

/-- The host operations from the support array to the rectified aggregate, as one function. -/
def hidden (S : (⟨S16384x256, .f32⟩ : BufTy).Contents (Elt F)) (row col : (⟨S524288, .i32⟩ : BufTy).Contents (Elt F))
    (w : (⟨S524288, .f32⟩ : BufTy).Contents (Elt F)) : (⟨S16384x256, .f32⟩ : BufTy).Contents (Elt F) :=
  maximumf (Host.scatterAdd scatter_S16384x256_S524288x1_S524288x256_1_0_0_1 (broadcastInDim S16384x256 ![] bcast_S_S16384x256 (constant S_ .f32 0x00000000#32)) (broadcastInDim S524288x1 ![0] bcast_S524288_S524288x1_0 row) (mulf (broadcastInDim S524288x256 ![0, 1] bcast_S524288x1_S524288x256_0_1 (broadcastInDim S524288x1 ![0] bcast_S524288_S524288x1_0 w)) (Host.gather gather_S16384x256_S524288x1_S524288x256_1_0_n_n_0_1_1256 S (broadcastInDim S524288x1 ![0] bcast_S524288_S524288x1_0 (select (cmpi .slt col (broadcastInDim S524288 ![] bcast_S_S524288 (constantI S_ 32 0#32))) (addi col (broadcastInDim S524288 ![] bcast_S_S524288 (constantI S_ 32 16384#32))) col))))) (broadcastInDim S16384x256 ![] bcast_S_S16384x256 (constant S_ .f32 0x00000000#32))

end Cert.Stages

end
-- ==== Proof.HostStretch.lean ====
/-
  The host operations between the first product and the projections, read from any buffer contents.

  From contents `X` of the buffers, the three stretches leave: in the aggregate's buffer the aggregation of `X`'s
  support array and edge data; in the two weight buffers the transposes of `X`'s weight arguments; in the two bias
  buffers `X`'s bias arguments as `[1, 256]` rows. Stated for arbitrary `X`, so that nothing about how the first region
  left its arrays enters here. The aggregate is followed stretch by stretch: the first stretch gathers, weights and
  scatter-adds; the second clamps below at zero; the third does not touch it. The gather and the scatter-add are
  the same functions whichever program's copy of their dimension record they are given, the two copies being equal.
  A `[256]` array cast to a `[1, 256]` row is the same array broadcast along a new leading unit axis.
-/
import proofs.«136336_j72756745994508_1_alg».proof.Proof.Gen.KernelIdeal.Launch
import proofs.«136336_j72756745994508_1_alg».proof.Proof.Aggregation
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostStretch

open Cert.KernelIdeal Cert.KernelIdeal.Gen Idealize.ShloMosaic Idealize.ShloMosaic.TcCoe Idealize.SL.Sem
open Idealize.ShloMosaic.StableHlo Idealize.ShloMosaic.ValueIdx

/-- A `[256]` array cast to a `[1, 256]` row is the same array broadcast along a new leading unit axis. -/
theorem row_of_bias (x : FVec Ideal S256 .f32) :
    shapeCast S1x256 x shapeCasts_S256_S1x256
      = broadcastInDim Cert.ReferenceIdeal.S1x256 ![1] Cert.ReferenceIdeal.Facts₀.bcast_S256_S1x256_1 x := by
  funext i
  obtain ⟨u, q, rfl⟩ : ∃ (u : Fin 1) (q : Fin 256), i = ix2 u q := ⟨i 0, i 1, eq_ix2 i⟩
  rw [shapeCast_a_1a_apply]
  exact (broadcastInDim_apply _ Cert.ReferenceIdeal.Facts₀.bcast_S256_S1x256_1 x (ix2 u q) (ix1 q) (fun a => match a with
    | ⟨0, _⟩ => by show q.val = if (256 : Nat) = 1 then 0 else q.val; rw [if_neg (by decide)])).symm

/-! ## The gather and the scatter-add under either program's dimension record -/

theorem gather_either (S : FVec Ideal S16384x256 .f32) (i : (⟨S524288x1, .i32⟩ : BufTy).Contents (Elt Ideal)) :
    Host.gather gather_S16384x256_S524288x1_S524288x256_1_0_n_n_0_1_1256 S i = Host.gather Cert.ReferenceIdeal.gather_S16384x256_S524288x1_S524288x256_1_0_n_n_0_1_1256 S i := rfl

theorem scatter_either (z : FVec Ideal S16384x256 .f32) (i : (⟨S524288x1, .i32⟩ : BufTy).Contents (Elt Ideal))
    (u : FVec Ideal S524288x256 .f32) :
    Host.scatterAdd (F := Ideal) scatter_S16384x256_S524288x1_S524288x256_1_0_0_1 z i u = Host.scatterAdd (F := Ideal) Cert.ReferenceIdeal.scatter_S16384x256_S524288x1_S524288x256_1_0_0_1 z i u := rfl

/-- The kernel program's spelling of the aggregation is the aggregation. -/
theorem hidden_spelt (S : FVec Ideal S16384x256 .f32) (r k : (⟨S524288, .i32⟩ : BufTy).Contents (Elt Ideal))
    (w : FVec Ideal S524288 .f32) :
    maximumf (F := Ideal) (Host.scatterAdd (F := Ideal) scatter_S16384x256_S524288x1_S524288x256_1_0_0_1 (broadcastInDim S16384x256 ![] bcast_S_S16384x256 (constant (F := Ideal) S_ .f32 0x00000000#32)) (broadcastInDim S524288x1 ![0] bcast_S524288_S524288x1_0 r) (mulf (broadcastInDim S524288x256 ![0, 1] bcast_S524288x1_S524288x256_0_1 (broadcastInDim S524288x1 ![0] bcast_S524288_S524288x1_0 w)) (Host.gather gather_S16384x256_S524288x1_S524288x256_1_0_n_n_0_1_1256 S (broadcastInDim S524288x1 ![0] bcast_S524288_S524288x1_0 (select (cmpi .slt k (broadcastInDim S524288 ![] bcast_S_S524288 (constantI S_ 32 0#32))) (addi k (broadcastInDim S524288 ![] bcast_S_S524288 (constantI S_ 32 16384#32))) k))))) (broadcastInDim S16384x256 ![] bcast_S_S16384x256 (constant (F := Ideal) S_ .f32 0x00000000#32))
      = Cert.Stages.hidden (F := Ideal) S r k w := by
  unfold Cert.Stages.hidden
  refine congrArg (fun z => maximumf (F := Ideal) z _) ?_
  refine (scatter_either _ _ _).trans ?_
  refine congrArg (fun u => Host.scatterAdd (F := Ideal) Cert.ReferenceIdeal.scatter_S16384x256_S524288x1_S524288x256_1_0_0_1 _ _ (mulf _ u)) ?_
  exact gather_either _ _

/-! ## The three stretches -/

variable (X Y : Valuation τ sig (Elt Ideal))

set_option maxHeartbeats 2000000 in
/-- The first stretch leaves the gathered, weighted, scatter-added rows in the aggregate's pre-image buffer. -/
theorem scattered :
    StableHlo.after hostOps1 X (Proc.devRef .tc main_v13)
      = Host.scatterAdd (F := Ideal) scatter_S16384x256_S524288x1_S524288x256_1_0_0_1 (broadcastInDim S16384x256 ![] bcast_S_S16384x256 (constant (F := Ideal) S_ .f32 0x00000000#32)) (broadcastInDim S524288x1 ![0] bcast_S524288_S524288x1_0 (X (Proc.devRef .tc main_arg1))) (mulf (broadcastInDim S524288x256 ![0, 1] bcast_S524288x1_S524288x256_0_1 (broadcastInDim S524288x1 ![0] bcast_S524288_S524288x1_0 (X (Proc.devRef .tc main_arg3)))) (Host.gather gather_S16384x256_S524288x1_S524288x256_1_0_n_n_0_1_1256 (X (Proc.devRef .tc main_v0)) (broadcastInDim S524288x1 ![0] bcast_S524288_S524288x1_0 (select (cmpi .slt (X (Proc.devRef .tc main_arg2)) (broadcastInDim S524288 ![] bcast_S_S524288 (constantI S_ 32 0#32))) (addi (X (Proc.devRef .tc main_arg2)) (broadcastInDim S524288 ![] bcast_S_S524288 (constantI S_ 32 16384#32))) (X (Proc.devRef .tc main_arg2)))))) := by
  after_results_simp

/-- The second stretch clamps below at zero. -/
theorem rectified :
    StableHlo.after hostOps1_1 Y (Proc.devRef .tc main_v14) = maximumf (F := Ideal) (Y (Proc.devRef .tc main_v13)) (broadcastInDim S16384x256 ![] bcast_S_S16384x256 (constant (F := Ideal) S_ .f32 0x00000000#32)) := by
  after_results_simp
  rfl

/-- The third stretch does not touch the aggregate. -/
theorem kept : StableHlo.after hostOps1_2 Y (Proc.devRef .tc main_v14) = (Y (Proc.devRef .tc main_v14)) := by
  after_results_simp

/-- The aggregate's buffer: the aggregation of the support array and the edge data. -/
theorem aggregate_of :
    StableHlo.after hostOps1_2 (StableHlo.after hostOps1_1 (StableHlo.after hostOps1 X)) (Proc.devRef .tc main_v14)
      = Cert.Stages.hidden (F := Ideal) (X (Proc.devRef .tc main_v0)) (X (Proc.devRef .tc main_arg1)) (X (Proc.devRef .tc main_arg2)) (X (Proc.devRef .tc main_arg3)) :=
  (kept _).trans ((rectified _).trans
    ((congrArg (fun z => maximumf (F := Ideal) z (broadcastInDim S16384x256 ![] bcast_S_S16384x256 (constant (F := Ideal) S_ .f32 0x00000000#32))) (scattered X)).trans (hidden_spelt _ _ _ _)))

/-- The node weight's buffer: the weight transposed. -/
theorem node_weight_of :
    StableHlo.after hostOps1_2 (StableHlo.after hostOps1_1 (StableHlo.after hostOps1 X)) (Proc.devRef .tc main_v15)
      = transpose Cert.ReferenceIdeal.S256x256 [1, 0] (X (Proc.devRef .tc main_arg5)) Cert.ReferenceIdeal.Facts₀.transposes_S256x256_S256x256_1_0 := by
  after_results_simp

/-- The neighbour weight's buffer: the weight transposed. -/
theorem neigh_weight_of :
    StableHlo.after hostOps1_2 (StableHlo.after hostOps1_1 (StableHlo.after hostOps1 X)) (Proc.devRef .tc main_v16)
      = transpose Cert.ReferenceIdeal.S256x256 [1, 0] (X (Proc.devRef .tc main_arg7)) Cert.ReferenceIdeal.Facts₀.transposes_S256x256_S256x256_1_0 := by
  after_results_simp

/-- The node bias's buffer: the bias as a row. -/
theorem node_bias_of :
    StableHlo.after hostOps1_2 (StableHlo.after hostOps1_1 (StableHlo.after hostOps1 X)) (Proc.devRef .tc main_v17)
      = broadcastInDim Cert.ReferenceIdeal.S1x256 ![1] Cert.ReferenceIdeal.Facts₀.bcast_S256_S1x256_1 (X (Proc.devRef .tc main_arg6)) := by
  after_results_simp
  exact row_of_bias _

/-- The neighbour bias's buffer: the bias as a row. -/
theorem neigh_bias_of :
    StableHlo.after hostOps1_2 (StableHlo.after hostOps1_1 (StableHlo.after hostOps1 X)) (Proc.devRef .tc main_v18)
      = broadcastInDim Cert.ReferenceIdeal.S1x256 ![1] Cert.ReferenceIdeal.Facts₀.bcast_S256_S1x256_1 (X (Proc.devRef .tc main_arg8)) := by
  after_results_simp
  exact row_of_bias _

end Cert.KernelIdeal.HostStretch

end
-- ==== Proof.Boundaries.lean ====
/-
  The kernel program's three results as functions of its arguments.

  The contents of a result buffer after the last segment are unwound boundary by boundary. The outer product's region
  leaves `node · neighᵀ` of the two embeddings it found and the embeddings themselves untouched; the projections'
  region leaves `H · W + b` of the aggregate, transposed weight and bias row it found; those are what the three host
  stretches computed from the first region's result and the arguments; and the first region leaves `x · W` of two
  arguments and every other buffer as launched. Each step replaces equals by equals inside one of the stage functions.
-/
import proofs.«136336_j72756745994508_1_alg».proof.Proof.Gen.KernelIdeal.Frame
import proofs.«136336_j72756745994508_1_alg».proof.Proof.FirstProduct
import proofs.«136336_j72756745994508_1_alg».proof.Proof.Projections
import proofs.«136336_j72756745994508_1_alg».proof.Proof.OuterProduct
import proofs.«136336_j72756745994508_1_alg».proof.Proof.Aggregation
import proofs.«136336_j72756745994508_1_alg».proof.Proof.HostStretch

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.Pipeline (Dat)

/-! ## The stage functions respect equality of their arguments -/

theorem hidden_congr {S S' : (⟨Cert.ReferenceIdeal.S16384x256, .f32⟩ : BufTy).Contents (Elt Ideal)}
    {r r' k k' : (⟨Cert.ReferenceIdeal.S524288, .i32⟩ : BufTy).Contents (Elt Ideal)}
    {w w' : (⟨Cert.ReferenceIdeal.S524288, .f32⟩ : BufTy).Contents (Elt Ideal)}
    (hS : S = S') (hr : r = r') (hk : k = k') (hw : w = w') :
    Cert.Stages.hidden (F := Ideal) S r k w = Cert.Stages.hidden (F := Ideal) S' r' k' w' := by
  subst hS hr hk hw; rfl

theorem affine_congr {H H' : FVec Ideal Cert.ReferenceIdeal.S16384x256 .f32} {W W' : FVec Ideal Cert.ReferenceIdeal.S256x256 .f32}
    {b b' : FVec Ideal Cert.ReferenceIdeal.S1x256 .f32} (hH : H = H') (hW : W = W') (hb : b = b') :
    Cert.Stages.affine H W b = Cert.Stages.affine H' W' b' := by
  subst hH hW hb; rfl

theorem gram_congr {A A' B B' : FVec Ideal Cert.ReferenceIdeal.S16384x256 .f32} (hA : A = A') (hB : B = B') :
    Cert.Stages.gram A B = Cert.Stages.gram A' B' := by
  subst hA hB; rfl

variable (m : (ℓ : Loc nD τ sig) → Buf (Elt Ideal) ℓ) (ρ : Dev nD → PrngReg)

/-! ## After the first region -/

/-- Its result buffer holds `x · W`. -/
theorem support_eq (c : Dev nD) :
    W1 m ρ c (Proc.devRef .tc main_v0)
      = Cert.ReferenceIdeal.Read.val_main_v0 (F := Ideal) (m ((c : Thread nD τ).loc main_arg0)) (m ((c : Thread nD τ).loc main_arg4)) :=
  (W1_arr m ρ c 2).trans (FirstProduct.final (V0 m ρ) c)

/-- A buffer that is none of its arrays is as launched. -/
theorem launched (c : Dev nD) (b : Ref sig .tc) (hb : ∀ w, Pipeline.arrRef spec0 w ≠ b) :
    W1 m ρ c (Proc.devRef .tc b) = m ((c : Thread nD τ).loc b) :=
  W1_of_ne m ρ c b hb

/-! ## When the projections' region is entered -/

/-- The aggregate of the arguments: the aggregation of `x · W` and the edge data. -/
abbrev aggregate (c : Dev nD) : FVec Ideal Cert.ReferenceIdeal.S16384x256 .f32 :=
  Cert.Stages.hidden (F := Ideal) (Cert.ReferenceIdeal.Read.val_main_v0 (F := Ideal) (m ((c : Thread nD τ).loc main_arg0)) (m ((c : Thread nD τ).loc main_arg4)))
    (m ((c : Thread nD τ).loc main_arg1)) (m ((c : Thread nD τ).loc main_arg2)) (m ((c : Thread nD τ).loc main_arg3))

theorem aggregate_eq (c : Dev nD) : V4 m ρ c main_v14 = aggregate m c :=
  (HostStretch.aggregate_of (W1 m ρ c)).trans
    (hidden_congr (support_eq m ρ c) (launched m ρ c main_arg1 (by decide)) (launched m ρ c main_arg2 (by decide))
      (launched m ρ c main_arg3 (by decide)))

theorem node_weight_eq (c : Dev nD) :
    V4 m ρ c main_v15 = transpose Cert.ReferenceIdeal.S256x256 [1, 0] (m ((c : Thread nD τ).loc main_arg5)) Cert.ReferenceIdeal.Facts₀.transposes_S256x256_S256x256_1_0 :=
  (HostStretch.node_weight_of (W1 m ρ c)).trans
    (congrArg (fun z => transpose Cert.ReferenceIdeal.S256x256 [1, 0] z Cert.ReferenceIdeal.Facts₀.transposes_S256x256_S256x256_1_0) (launched m ρ c main_arg5 (by decide)))

theorem neigh_weight_eq (c : Dev nD) :
    V4 m ρ c main_v16 = transpose Cert.ReferenceIdeal.S256x256 [1, 0] (m ((c : Thread nD τ).loc main_arg7)) Cert.ReferenceIdeal.Facts₀.transposes_S256x256_S256x256_1_0 :=
  (HostStretch.neigh_weight_of (W1 m ρ c)).trans
    (congrArg (fun z => transpose Cert.ReferenceIdeal.S256x256 [1, 0] z Cert.ReferenceIdeal.Facts₀.transposes_S256x256_S256x256_1_0) (launched m ρ c main_arg7 (by decide)))

theorem node_bias_eq (c : Dev nD) :
    V4 m ρ c main_v17 = broadcastInDim Cert.ReferenceIdeal.S1x256 ![1] Cert.ReferenceIdeal.Facts₀.bcast_S256_S1x256_1 (m ((c : Thread nD τ).loc main_arg6)) :=
  (HostStretch.node_bias_of (W1 m ρ c)).trans
    (congrArg (fun z => broadcastInDim Cert.ReferenceIdeal.S1x256 ![1] Cert.ReferenceIdeal.Facts₀.bcast_S256_S1x256_1 z) (launched m ρ c main_arg6 (by decide)))

theorem neigh_bias_eq (c : Dev nD) :
    V4 m ρ c main_v18 = broadcastInDim Cert.ReferenceIdeal.S1x256 ![1] Cert.ReferenceIdeal.Facts₀.bcast_S256_S1x256_1 (m ((c : Thread nD τ).loc main_arg8)) :=
  (HostStretch.neigh_bias_of (W1 m ρ c)).trans
    (congrArg (fun z => broadcastInDim Cert.ReferenceIdeal.S1x256 ![1] Cert.ReferenceIdeal.Facts₀.bcast_S256_S1x256_1 z) (launched m ρ c main_arg8 (by decide)))

/-! ## After the projections' region -/

/-- The node embedding of the arguments. -/
abbrev node (c : Dev nD) : FVec Ideal Cert.ReferenceIdeal.S16384x256 .f32 :=
  Cert.Stages.affine (aggregate m c)
    (transpose Cert.ReferenceIdeal.S256x256 [1, 0] (m ((c : Thread nD τ).loc main_arg5)) Cert.ReferenceIdeal.Facts₀.transposes_S256x256_S256x256_1_0)
    (broadcastInDim Cert.ReferenceIdeal.S1x256 ![1] Cert.ReferenceIdeal.Facts₀.bcast_S256_S1x256_1 (m ((c : Thread nD τ).loc main_arg6)))

/-- The neighbour embedding of the arguments. -/
abbrev neigh (c : Dev nD) : FVec Ideal Cert.ReferenceIdeal.S16384x256 .f32 :=
  Cert.Stages.affine (aggregate m c)
    (transpose Cert.ReferenceIdeal.S256x256 [1, 0] (m ((c : Thread nD τ).loc main_arg7)) Cert.ReferenceIdeal.Facts₀.transposes_S256x256_S256x256_1_0)
    (broadcastInDim Cert.ReferenceIdeal.S1x256 ![1] Cert.ReferenceIdeal.Facts₀.bcast_S256_S1x256_1 (m ((c : Thread nD τ).loc main_arg8)))

theorem node_eq (c : Dev nD) : V5 m ρ c main_v19_0 = node m c :=
  (W5_arr m ρ c 5).trans ((Projections.final_node (V4 m ρ) c).trans
    (affine_congr (aggregate_eq m ρ c) (node_weight_eq m ρ c) (node_bias_eq m ρ c)))

theorem neigh_eq (c : Dev nD) : V5 m ρ c main_v19_1 = neigh m c :=
  (W5_arr m ρ c 6).trans ((Projections.final_neigh (V4 m ρ) c).trans
    (affine_congr (aggregate_eq m ρ c) (neigh_weight_eq m ρ c) (neigh_bias_eq m ρ c)))

/-! ## After the last region -/

/-- The outer product's buffer holds `node · neighᵀ` of the arguments' embeddings. -/
theorem adj_final (c : Dev nD) : V6 m ρ c main_v20 = Cert.Stages.gram (node m c) (neigh m c) :=
  (W6_arr m ρ c 2).trans ((OuterProduct.final (V5 m ρ) c).trans (gram_congr (node_eq m ρ c) (neigh_eq m ρ c)))

/-- The last region reads the node embedding and leaves it as it found it. -/
theorem node_final (c : Dev nD) : V6 m ρ c main_v19_0 = node m c :=
  ((W6_arr m ρ c 0).trans (((dat2 (V5 m ρ) c).arrAt_in 0 rfl _).trans (A_eq2 (V5 m ρ) c 0))).trans (node_eq m ρ c)

/-- The last region reads the neighbour embedding and leaves it as it found it. -/
theorem neigh_final (c : Dev nD) : V6 m ρ c main_v19_1 = neigh m c :=
  ((W6_arr m ρ c 1).trans (((dat2 (V5 m ρ) c).arrAt_in 1 rfl _).trans (A_eq2 (V5 m ρ) c 1))).trans (neigh_eq m ρ c)

end Cert.KernelIdeal.Boundaries

end
-- ==== Proof.lean ====
/-
  The graph auto-encoder's forward pass, kernel against reference, over the extended reals.

  Both programs compute, from node features `x`, an edge list with weights, and three weight matrices with two biases:
  `support = x · W`; the edge aggregation of `support` rectified, `H`; the two embeddings `node = H · Wₙᵀ + bₙ` and
  `neigh = H · W_gᵀ + b_g`; and `adj = node · neighᵀ`. The reference does the three products as whole-array
  contractions on the host. The kernel does each as a tiled product into a zero accumulator, block by block, with the
  operands narrowed first; over the extended reals the narrowing is the identity and a product into zero is the plain
  sum over the contracted axis, so each block the kernel writes is the corresponding block of the whole-array
  contraction and the blocks tile each result. The aggregation between the first product and the projections is the
  same chain of host operations in both programs and is carried as one function. No algebraic law beyond re-indexing
  the sums is used, so the finiteness of the inputs is not needed for the equality.

  The pass that idealizes the kernel rewrote no operation, so there is nothing to preserve beyond the program's own
  text read over the extended reals. The two kernel frames are the generated frame certificates; the reference's frame
  is its generated run with the results dropped.
-/
import proofs.«136336_j72756745994508_1_alg».proof.Defs
import proofs.«136336_j72756745994508_1_alg».proof.Proof.Gen.Kernel
import proofs.«136336_j72756745994508_1_alg».proof.Proof.Gen.Kernel.Skeleton
import proofs.«136336_j72756745994508_1_alg».proof.Proof.Gen.Kernel.Launch
import proofs.«136336_j72756745994508_1_alg».proof.Proof.Gen.Kernel.Points
import proofs.«136336_j72756745994508_1_alg».proof.Proof.Gen.Kernel.Frame
import proofs.«136336_j72756745994508_1_alg».proof.Proof.Gen.KernelIdeal
import proofs.«136336_j72756745994508_1_alg».proof.Proof.Gen.KernelIdeal.Skeleton
import proofs.«136336_j72756745994508_1_alg».proof.Proof.Gen.KernelIdeal.Launch
import proofs.«136336_j72756745994508_1_alg».proof.Proof.Gen.KernelIdeal.Points
import proofs.«136336_j72756745994508_1_alg».proof.Proof.Gen.KernelIdeal.Frame
import proofs.«136336_j72756745994508_1_alg».proof.Proof.Gen.ReferenceIdeal
import proofs.«136336_j72756745994508_1_alg».proof.Proof.Gen.ReferenceIdeal.Run
import proofs.«136336_j72756745994508_1_alg».proof.Proof.Gen.ReferenceIdeal.Read
import proofs.«136336_j72756745994508_1_alg».proof.Proof.Gen.Pre_finite_inputs
import proofs.«136336_j72756745994508_1_alg».proof.Proof.KernelRun
import proofs.«136336_j72756745994508_1_alg».proof.Proof.Boundaries
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The kernel over the extended reals runs and leaves its arguments unchanged. -/
theorem frame_kernel_ideal : Cert.frame_KernelIdeal := fun m ρ _ => Cert.KernelIdeal.Gen.frame m ρ

/-- The reference over the extended reals runs and leaves its arguments unchanged: its run, the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with `node · neighᵀ`, `node` and `neigh` of those
    arguments: the kernel by its run read boundary by boundary, the reference because its three result terms are these
    functions spelt out. -/
theorem algebraic : Cert.algebraic_KernelIdeal_ReferenceIdeal := by
  intro m ρ m' ρ' _ hagree
  refine ⟨fun c => Cert.Stages.gram (Cert.KernelIdeal.Boundaries.node m c) (Cert.KernelIdeal.Boundaries.neigh m c),
    fun c => Cert.KernelIdeal.Boundaries.node m c, fun c => Cert.KernelIdeal.Boundaries.neigh m c, ?_, ?_⟩
  · exact (θ_run Cert.KernelIdeal.defs _ _).mono (fun r h c =>
      ⟨(h c).1.trans (Cert.KernelIdeal.Boundaries.adj_final m ρ c),
       (h c).2.1.trans (Cert.KernelIdeal.Boundaries.node_final m ρ c),
       (h c).2.2.1.trans (Cert.KernelIdeal.Boundaries.neigh_final m ρ c),
       (h c).2.2.2⟩) (Cert.KernelIdeal.RunNamed.run (F := Ideal) m ρ)
  · refine (θ_run Cert.ReferenceIdeal.defs _ _).mono (fun r h c =>
      ⟨(h c).1.trans ?_, (h c).2.1.trans ?_, (h c).2.2.1.trans ?_, (h c).2.2.2⟩)
      (Cert.ReferenceIdeal.Value.run (F := Ideal) m' ρ')
    all_goals
      obtain ⟨a0, a1, a2, a3, a4, a5, a6, a7, a8⟩ := hagree c
      simp only [a0, a1, a2, a3, a4, a5, a6, a7, a8]
      rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
